-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S8x2048 : Shape := ⟨2, ![8, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S4x8192x2048 .f32) (main_arg1 : FVec F S8x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S4x8192x2048 : Shape := ⟨3, ![4, 8192, 2048]⟩
abbrev S8x2048 : Shape := ⟨2, ![8, 2048]⟩
abbrev S4x8x8192 : Shape := ⟨3, ![4, 8, 8192]⟩
abbrev S1x2048x2048 : Shape := ⟨3, ![1, 2048, 2048]⟩
abbrev S1x8x2048 : Shape := ⟨3, ![1, 8, 2048]⟩
abbrev S2048x2048 : Shape := ⟨2, ![2048, 2048]⟩
abbrev S4x8192x8 : Shape := ⟨3, ![4, 8192, 8]⟩

abbrev nBuf : Space → Nat
  | .hbm => 4
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S8x2048, .f32⟩
  | .hbm, ⟨2, _⟩ => ⟨S4x8x8192, .f32⟩
  | .hbm, ⟨3, _⟩ => ⟨S4x8192x8, .f32⟩
  | .local _ .vmem, ⟨0, _⟩ => ⟨S1x2048x2048, .f32⟩
  | .local _ .vmem, ⟨1, _⟩ => ⟨S1x2048x2048, .f32⟩
  | .local _ .vmem, ⟨2, _⟩ => ⟨S8x2048, .f32⟩
  | .local _ .vmem, ⟨3, _⟩ => ⟨S1x8x2048, .f32⟩
  | .local _ .vmem, ⟨4, _⟩ => ⟨S1x8x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x2048_S8x2048_0_0 : ∀ a, (![0, 0] : Fin 2 → Nat) a + S8x2048.size a ≤ S8x2048.size a
  h_S8x2048 : 0 < S8x2048.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  transposes_S4x8x8192_S4x8192x8_0_2_1 : S4x8x8192.Transposes [0, 2, 1] S4x8192x8
  dot_S8x2048_S2048x2048_S8x2048_1_1_0_0_n_n_wf : DotDims.WF S8x2048 S2048x2048 S8x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S4x8192x2048.size a
  hwx0_0 : ∀ i : grid0.Coords, EltTy.bits .f32 = 32 ∨ (Rect.block (s := S4x8192x2048) S1x2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x2048.size a ≤ S4x8x8192.size a
  hwx0_2 : ∀ i : grid0.Coords, EltTy.bits .f32 = 32 ∨ (Rect.block (s := S4x8x8192) S1x8x2048.size (cc0_transform_2 i) (hinb0_2 i)).WholeWords (EltTy.packing .f32)

variable [Facts₀]

def dot_S8x2048_S2048x2048_S8x2048_1_1_0_0_n_n : DotDims S8x2048 S2048x2048 S8x2048 where
  lhsContracting := [1]
  rhsContracting := [1]
  lhsNonContracting := [0]
  rhsNonContracting := [0]
  lhsBatch := []
  rhsBatch := []
  wf := dot_S8x2048_S2048x2048_S8x2048_1_1_0_0_n_n_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S8x2048 : Shape := ⟨2, ![8, 2048]⟩
abbrev S4x8192x8 : Shape := ⟨3, ![4, 8192, 8]⟩

abbrev nBuf : Space → Nat
  | .hbm => 3
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8x2048, .f32⟩
  | .hbm, ⟨2, _⟩ => ⟨S4x8192x8, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x8192x2048_S8x2048_S4x8192x8_2_1_01_0_n_n_wf : DotDims.WF S4x8192x2048 S8x2048 S4x8192x8 [2] [1] [0, 1] [0] [] []

variable [Facts₀]

def dot_S4x8192x2048_S8x2048_S4x8192x8_2_1_01_0_n_n : DotDims S4x8192x2048 S8x2048 S4x8192x8 where
  lhsContracting := [2]
  rhsContracting := [1]
  lhsNonContracting := [0, 1]
  rhsNonContracting := [0]
  lhsBatch := []
  rhsBatch := []
  wf := dot_S4x8192x2048_S8x2048_S4x8192x8_2_1_01_0_n_n_wf

class Facts : Prop extends Facts₀ where

variable [Facts]
-- ==== Proof.Payload.lean ====
/-
  What one grid point's body computes, entry by entry, over the extended reals.

  The body loads the whole weight block `wb` of shape [8, 2048] and the point's activation block `xb` of shape
  [1, 2048, 2048] (one batch entry, 2048 tokens, the whole hidden axis), drops the activation block's leading unit axis,
  multiplies the weights by the activations contracting the hidden axis of both into a zero accumulator, and puts a
  leading unit axis back on the [8, 2048] product.  So entry (0, e, s) of what it stores is
  `∑ h, wb[e, h] · xb[0, s, h]`: the zero accumulator adds nothing, and the two changes of shape only rename indices.
-/
import proofs.«103493_g31559419691535_cont_9to1_739_14_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, coordinate by coordinate

At output entry (e, s) and contraction index h the left operand is read at (e, h) and the right one at (s, h). -/

theorem lhs_row (j : S8x2048.Idx) (q : dot_S8x2048_S2048x2048_S8x2048_1_1_0_0_n_n.contr.Idx) :
    (dot_S8x2048_S2048x2048_S8x2048_1_1_0_0_n_n.lhsIdx j q 0).val = (j 0).val := by
  unfold DotDims.lhsIdx
  rw [dif_neg (show ¬(0 : Fin S8x2048.rank) ∈ dot_S8x2048_S2048x2048_S8x2048_1_1_0_0_n_n.lhsBatch by decide),
    dif_pos (show (0 : Fin S8x2048.rank) ∈ dot_S8x2048_S2048x2048_S8x2048_1_1_0_0_n_n.lhsNonContracting by decide)]
  rfl

theorem lhs_col (j : S8x2048.Idx) (q : dot_S8x2048_S2048x2048_S8x2048_1_1_0_0_n_n.contr.Idx) :
    (dot_S8x2048_S2048x2048_S8x2048_1_1_0_0_n_n.lhsIdx j q 1).val = (q ⟨0, by decide⟩).val :=
  dot_S8x2048_S2048x2048_S8x2048_1_1_0_0_n_n.lhsIdx_val_of_single rfl j q

theorem rhs_row (j : S8x2048.Idx) (q : dot_S8x2048_S2048x2048_S8x2048_1_1_0_0_n_n.contr.Idx) :
    (dot_S8x2048_S2048x2048_S8x2048_1_1_0_0_n_n.rhsIdx j q 0).val = (j 1).val := by
  unfold DotDims.rhsIdx
  rw [dif_neg (show ¬(0 : Fin S2048x2048.rank) ∈ dot_S8x2048_S2048x2048_S8x2048_1_1_0_0_n_n.rhsBatch by decide),
    dif_pos (show (0 : Fin S2048x2048.rank) ∈ dot_S8x2048_S2048x2048_S8x2048_1_1_0_0_n_n.rhsNonContracting by decide)]
  rfl

theorem rhs_col (j : S8x2048.Idx) (q : dot_S8x2048_S2048x2048_S8x2048_1_1_0_0_n_n.contr.Idx) :
    (dot_S8x2048_S2048x2048_S8x2048_1_1_0_0_n_n.rhsIdx j q 1).val = (q ⟨0, by decide⟩).val :=
  dot_S8x2048_S2048x2048_S8x2048_1_1_0_0_n_n.rhsIdx_val_of_single rfl j q

/-- The product into a zero accumulator, at entry (e, s): the sum over the hidden axis of left (e, h) times right (s, h). -/
theorem matmul_zero_at (a : FVec Ideal S8x2048 .f32) (b : FVec Ideal S2048x2048 .f32) (j : S8x2048.Idx) :
    matmul (F := Ideal) dot_S8x2048_S2048x2048_S8x2048_1_1_0_0_n_n none a b (constant (F := Ideal) S8x2048 .f32 0x00000000#32) j
      = ∑ k : Fin 2048, a (ix2 (j 0) k) * b (ix2 (j 1) k) := by
  simp only [matmul]
  rw [Ideal.matmul_constant_zero_apply, ← Equiv.sum_comp (contrEquiv1 dot_S8x2048_S2048x2048_S8x2048_1_1_0_0_n_n 2048 rfl rfl).symm]
  refine Finset.sum_congr rfl fun k _ => ?_
  have hk := contrEquiv1_symm_val dot_S8x2048_S2048x2048_S8x2048_1_1_0_0_n_n 2048 rfl rfl k
  have el : dot_S8x2048_S2048x2048_S8x2048_1_1_0_0_n_n.lhsIdx j ((contrEquiv1 dot_S8x2048_S2048x2048_S8x2048_1_1_0_0_n_n 2048 rfl rfl).symm k) = ix2 (j 0) k :=
    funext fun d => Fin.ext (by
      match d with
      | ⟨0, _⟩ => exact lhs_row _ _
      | ⟨1, _⟩ => exact (lhs_col _ _).trans hk)
  have er : dot_S8x2048_S2048x2048_S8x2048_1_1_0_0_n_n.rhsIdx j ((contrEquiv1 dot_S8x2048_S2048x2048_S8x2048_1_1_0_0_n_n 2048 rfl rfl).symm k) = ix2 (j 1) k :=
    funext fun d => Fin.ext (by
      match d with
      | ⟨0, _⟩ => exact rhs_row _ _
      | ⟨1, _⟩ => exact (rhs_col _ _).trans hk)
  rw [el, er]
  rfl

/-- Dropping the activation block's leading unit axis: entry (s, h) of the [2048, 2048] view is entry (0, s, h). -/
theorem drop_unit_at (xb : Vec Ideal S1x2048x2048 .f32) (s k : Fin 2048) :
    shapeCast S2048x2048 xb shapeCasts_S1x2048x2048_S2048x2048 (ix2 s k) = xb (ix3 (0 : Fin 1) s k) := by
  refine (shapeCast_dropUnit_apply ![2048, 2048] xb shapeCasts_S1x2048x2048_S2048x2048 (ix2 s k)).trans ?_
  refine congrArg xb (funext fun d => ?_)
  match d with
  | ⟨0, _⟩ => rfl
  | ⟨1, _⟩ => rfl
  | ⟨2, _⟩ => rfl

/-- WHAT THE BODY STORES, at entry (0, e, s) of the output block: `∑ h, wb[e, h] · xb[0, s, h]`. -/
theorem pay_apply (wb : Vec Ideal S8x2048 .f32) (xb : Vec Ideal S1x2048x2048 .f32) (j : S1x8x2048.Idx) :
    k0_pay1 (F := Ideal) wb xb j = ∑ k : Fin 2048, wb (ix2 (j 1) k) * xb (ix3 (0 : Fin 1) (j 2) k) := by
  unfold k0_pay1
  refine (shapeCast_addUnit_apply ![8, 2048] _ shapeCasts_S8x2048_S1x8x2048 j).trans ?_
  refine (matmul_zero_at wb _ _).trans ?_
  refine Finset.sum_congr rfl fun k _ => ?_
  exact congrArg (wb (ix2 (j 1) k) * ·) (drop_unit_at xb (j 2) k)

end Cert.KernelIdeal.Body

end
-- ==== Proof.Spec.lean ====
/-
  The router's logits as one function of the two argument arrays, index by index, over the extended reals.

  For batch `b`, token `s` and expert `e` the logit is the inner product over the hidden axis
  `∑ h, x[b, s, h] · w[e, h]`.  Two arrangements of the same numbers appear:
  * `logits`, laid out [batch, token, expert], each product written `x · w`;
  * `logitsT`, laid out [batch, expert, token], each product written `w · x`.
  A transpose of the last two axes carries the second to the first; the only law used is that the product
  of two extended reals commutes, which holds at the infinities too, so no finiteness of the inputs is needed.
-/
import Idealize.ShloMosaic.PureOps.Ideal
import Idealize.ShloMosaic.Lib.ValueIdx
import Idealize.ShloMosaic.Lib.Pipeline.Value

noncomputable section

namespace Cert.RouterSpec

open Idealize.ShloMosaic Idealize.ShloMosaic.ValueIdx

/-- The activations' shape [4, 8192, 2048], the weights' [8, 2048], and the two layouts of the logits. -/
abbrev SX : Shape := ⟨3, ![4, 8192, 2048]⟩
abbrev SW : Shape := ⟨2, ![8, 2048]⟩
abbrev SL : Shape := ⟨3, ![4, 8192, 8]⟩
abbrev SLT : Shape := ⟨3, ![4, 8, 8192]⟩

/-- Logit [b, s, e]: the inner product of token (b, s)'s activations with expert e's weights. -/
def logits (x : FVec Ideal SX .f32) (w : FVec Ideal SW .f32) : FVec Ideal SL .f32 :=
  fun i => ∑ k : Fin 2048, x (ix3 (i 0) (i 1) k) * w (ix2 (i 2) k)

/-- The same inner products laid out [b, e, s], the weight written as the left factor. -/
def logitsT (x : FVec Ideal SX .f32) (w : FVec Ideal SW .f32) : FVec Ideal SLT .f32 :=
  fun j => ∑ k : Fin 2048, w (ix2 (j 1) k) * x (ix3 (j 0) (j 2) k)

/-- Swapping the last two axes of the expert-major layout gives the token-major one: entry [b, s, e] of the
    transpose is entry [b, e, s] of the operand, and each product commutes. -/
theorem transpose_logitsT (x : FVec Ideal SX .f32) (w : FVec Ideal SW .f32) (h : SLT.Transposes [0, 2, 1] SL) :
    transpose SL [0, 2, 1] (logitsT x w) h = logits x w := by
  funext i
  rw [transpose_apply [0, 2, 1] (logitsT x w) h i (ix3 (i 0) (i 2) (i 1))
    (fun b => by match b with | ⟨0, _⟩ => rfl | ⟨1, _⟩ => rfl | ⟨2, _⟩ => rfl)]
  unfold logitsT logits
  exact Finset.sum_congr rfl fun k _ => mul_comm _ _

end Cert.RouterSpec

end
-- ==== Proof.Blocks.lean ====
/-
  The array the region leaves: the logits laid out [batch, expert, token].

  The grid has 4 × 4 points (b, i).  Point (b, i) is handed the activations of batch entry b, tokens
  2048·i … 2048·i + 2047 (block (b, i, 0) of the activations), the whole weight array, and writes back block (b, 0, i) of
  the [4, 8, 8192] output: for every expert e and every token s of that stretch the inner product of the token's
  activations with the expert's weights.  Since what a point writes at an index depends only on the index and the two
  argument arrays, every point writes its block of ONE array, `logitsT`; the 16 blocks tile the output, so after the
  region the output array is `logitsT` of the arguments.
-/
import proofs.«103493_g31559419691535_cont_9to1_739_14_alg».proof.Proof.Gen.KernelIdeal.Frame
import proofs.«103493_g31559419691535_cont_9to1_739_14_alg».proof.Proof.Payload
import proofs.«103493_g31559419691535_cont_9to1_739_14_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.RouterSpec
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- One entry of a point's result against one entry of `logitsT`: they are the same sum as soon as the weight block's
    row is the weight array's row and the activation block's row is the activation array's row. -/
theorem block_entry (X : FVec Ideal SX .f32) (W : FVec Ideal SW .f32)
    (wb : Vec Ideal S8x2048 .f32) (xb : Vec Ideal S1x2048x2048 .f32) (j : S1x8x2048.Idx) (i : S4x8x8192.Idx)
    (hw : ∀ k : Fin 2048, wb (ix2 (j 1) k) = W (ix2 (i 1) k))
    (hx : ∀ k : Fin 2048, xb (ix3 (0 : Fin 1) (j 2) k) = X (ix3 (i 0) (i 2) k)) :
    k0_pay1 (F := Ideal) wb xb j = logitsT X W i := by
  rw [Body.pay_apply]
  unfold logitsT
  exact Finset.sum_congr rfl fun k _ => by rw [hw k, hx k]

/-- The three index maps over the 16 grid points: the activations' block sits at the output block's batch entry and
    token stretch and spans the hidden axis; the weights' block is the whole array; the output's block spans the experts. -/
theorem block_indices : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_1.index t (0 : Fin 2) = 0
    ∧ win0_1.index t (1 : Fin 2) = 0
    ∧ win0_2.index t (1 : Fin 3) = 0 :=
  (by decide +kernel : ∀ t : Fin grid0.N, _)

/-- Every (batch entry, token stretch) is some point's output block. -/
theorem blocks_onto : ∀ (b : Fin 4) (i : Fin 4), ∃ t : Fin cfg0.N, win0_2.index t = ![b.val, 0, i.val] :=
  (by decide +kernel : ∀ (b : Fin 4) (i : Fin 4), ∃ t : Fin grid0.N, win0_2.index t = ![b.val, 0, i.val])

/-- WHAT POINT `t` WRITES BACK is block `t` of `logitsT` of the argument arrays. -/
theorem flushed_eq (c : Dev nD) (t : Fin cfg0.N) :
    (dats m 0 c).flushed 2 t
      = ((cfg0.win 2).blk t).view.read (Elt Ideal) (logitsT (V m c main_arg0) (V m c main_arg1)) := by
  show (cfg0.win 2).cut (grid0.coords t) ((dats m 0 c).after 2 t) = _
  rw [after0_2]
  unfold out0_2
  rw [View.canon_unit_zero zero3]
  simp only [View.ld_unit_zero (S := S8x2048) zero2, View.ld_unit_zero (S := S1x2048x2048) zero3]
  obtain ⟨e0, e1, e2, e3, e4, e5⟩ := block_indices t
  funext j
  show k0_pay1 (F := Ideal) (iblk m c 1 t) (iblk m c 0 t) j
    = logitsT (V m c main_arg0) (V m c main_arg1) (((cfg0.win 2).blk t).view.emb j)
  refine block_entry (V m c main_arg0) (V m c main_arg1) (iblk m c 1 t) (iblk m c 0 t) j _ (fun k => ?_) (fun k => ?_)
  · show V m c main_arg1 (((cfg0.win 1).blk t).view.emb (ix2 (j 1) k))
      = V m c main_arg1 (ix2 ((((cfg0.win 2).blk t).view.emb j) 1) k)
    refine congrArg (V m c main_arg1) ?_
    funext a; apply Fin.ext
    match a with
    | ⟨0, _⟩ => show win0_1.index t (0 : Fin 2) * 8 + 1 * (j 1).val = win0_2.index t (1 : Fin 3) * 8 + 1 * (j 1).val; omega
    | ⟨1, _⟩ => show win0_1.index t (1 : Fin 2) * 2048 + 1 * k.val = k.val; omega
  · show V m c main_arg0 (((cfg0.win 0).blk t).view.emb (ix3 (0 : Fin 1) (j 2) k))
      = V m c main_arg0 (ix3 ((((cfg0.win 2).blk t).view.emb j) 0) ((((cfg0.win 2).blk t).view.emb j) 2) k)
    refine congrArg (V m c main_arg0) ?_
    funext a; apply Fin.ext
    have hj0 : (j 0).val < 1 := (j 0).isLt
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 2).val = win0_2.index t (2 : Fin 3) * 2048 + 1 * (j 2).val; omega
    | ⟨2, _⟩ => show win0_0.index t (2 : Fin 3) * 2048 + 1 * k.val = k.val; omega

/-- An index of the output array is in point `t`'s block iff each coordinate is in the block's range on its axis. -/
theorem mem_block (t : Fin cfg0.N) (i : S4x8x8192.Idx) :
    i ∈ ((cfg0.win 2).blk t).view.set ↔ ∀ a : Fin 3, win0_2.index t a * S1x8x2048.size a ≤ (i a).val
      ∧ (i a).val < win0_2.index t a * S1x8x2048.size a + S1x8x2048.size a := by
  show i ∈ ((View.whole main_v0).slice (win0_2.rect t)).set ↔ _
  rw [View.set_slice_whole, Rect.mem_set_unit]
  exact Iff.rfl

/-- The 16 blocks tile the output: index [b, e, s] is in the block of the point with batch entry b and token stretch
    s / 2048. -/
theorem covered (i : S4x8x8192.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 8192 := (i 2).isLt
  obtain ⟨t, ht⟩ := blocks_onto ⟨(i 0).val, h0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 2048 ≤ (i 2).val ∧ (i 2).val < win0_2.index t (2 : Fin 3) * 2048 + 2048; omega

/-- THE OUTPUT ARRAY after the region is `logitsT` of the argument arrays as launched. -/
theorem final_array (c : Dev nD) :
    (dats m 0 c).arrAt 2 cfg0.N
      = logitsT (m ((c : Thread nD τ).loc main_arg0)) (m ((c : Thread nD τ).loc main_arg1)) :=
  (dats m 0 c).arrAt_eq_of_cover 2 (logitsT (V m c main_arg0) (V m c main_arg1)) (fun t _ => flushed_eq m c t) covered

end Cert.KernelIdeal.Blocks

end
-- ==== Proof.KernelRun.lean ====
/-
  The kernel program's run, read: its result array ends at the specification's `logits`.

  After the region the program swaps the last two axes of the region's [4, 8, 8192] output into the [4, 8192, 8]
  result.  The region leaves `logitsT` of the arguments (the blocks module); the swap of `logitsT` is `logits`
  (the specification); the argument arrays are only read.
-/
import proofs.«103493_g31559419691535_cont_9to1_739_14_alg».proof.Proof.Blocks
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo Cert.RouterSpec
open Idealize.ShloMosaic.Pipeline (Dat)

variable (m : (ℓ : Loc nD τ sig) → Buf (Elt Ideal) ℓ) (ρ : Dev nD → PrngReg)

/-- The result buffer after the line that follows the region: the transpose of what the region left, which is `logits`. -/
theorem tail_value (c : Dev nD) :
    Pipeline.afterTail₀ cfgs (dats m) 0 (V0 m) [hostOps1] c main_v1
      = logits (m ((c : Thread nD τ).loc main_arg0)) (m ((c : Thread nD τ).loc main_arg1)) := by
  unfold Pipeline.afterTail₀
  show StableHlo.after hostOps1 _ (Proc.devRef .tc main_v1) = _
  after_results
  have hreg : Pipeline.withArrays (cfgs 0).spec c (V0 m c) (fun w => (dats m 0 c).arrAt w (cfgs 0).N)
        (Proc.devRef .tc main_v0)
      = logitsT (m ((c : Thread nD τ).loc main_arg0)) (m ((c : Thread nD τ).loc main_arg1)) :=
    (Pipeline.withArrays_arr spec0 launch0.win.arr_inj c _ _ 2).trans (Blocks.final_array m c)
  rw [hreg]
  exact transpose_logitsT _ _ _

/-- The result buffer is unscoped and is no window's array, so the region leaves it to the line that follows. -/
theorem result_rest : main_v1 ∈ Pipeline.restRefs sig (cfgs 0).spec :=
  Pipeline.mem_restRefs_of main_v1 rfl (by decide)

/-- THE RUN, READ: every weakly fair execution of the kernel program terminates with its result array at `logits` of
    the argument arrays as launched, and the argument arrays unchanged. -/
theorem run : θ_run defs (onTc (τ := τ) (main (F := Ideal))) ⟨m, fun _ => 0, ρ⟩ fun r => ∀ c : Dev nD,
      r.2.mem ((c.tc : Thread nD τ).loc main_v1)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefValue.lean ====
/-
  The reference's result, entry by entry, is the logits of the specification.

  The reference is one contraction of the activations [4, 8192, 2048] with the weights [8, 2048] over the hidden axis of
  both; read at [b, s, e] it is `∑ h, x[b, s, h] · w[e, h]`, which is the specification's `logits` term for term.
-/
import proofs.«103493_g31559419691535_cont_9to1_739_14_alg».proof.Proof.Gen.ReferenceIdeal.Read
import proofs.«103493_g31559419691535_cont_9to1_739_14_alg».proof.Proof.Spec

noncomputable section

namespace Cert.ReferenceIdeal.RefValue

open Cert.ReferenceIdeal Cert.ReferenceIdeal.Gen Idealize.ShloMosaic Idealize.ShloMosaic.ValueIdx Cert.RouterSpec

/-- The reference's contraction is `logits`: its left operand is read at (b, s, h) and its right one at (e, h). -/
theorem ref_eq (x : FVec Ideal S4x8192x2048 .f32) (w : FVec Ideal S8x2048 .f32) :
    Read.val_main_v0 (F := Ideal) x w = logits x w := by
  funext i
  rw [Read.val_main_v0_apply]
  unfold logits
  refine Finset.sum_congr rfl fun k _ => ?_
  have el : Read.lidx_main_v0 i k = ix3 (i 0) (i 1) k :=
    funext fun a => Fin.ext (by match a with | ⟨0, _⟩ => rfl | ⟨1, _⟩ => rfl | ⟨2, _⟩ => rfl)
  have er : Read.ridx_main_v0 i k = ix2 (i 2) k :=
    funext fun a => Fin.ext (by match a with | ⟨0, _⟩ => rfl | ⟨1, _⟩ => rfl)
  rw [el, er]
  rfl

end Cert.ReferenceIdeal.RefValue

end
-- ==== Proof.lean ====
/-
  The router kernel against its reference, over the extended reals.

  Both programs compute the router's logits `logits[b, s, e] = ∑ h, x[b, s, h] · w[e, h]` of the activations
  x : [4, 8192, 2048] and the weights w : [8, 2048].  The kernel does it block by block — for each batch entry and each
  stretch of 2048 tokens it multiplies the weights by the stretch's activations, which leaves the logits laid out
  [batch, expert, token] — and then swaps the last two axes; the reference is one contraction over the hidden axis.
  Entry by entry the two results are the same sum with the factors of each product in the other order, and the product of
  extended reals commutes (at the infinities too), so the two results are equal for every input: the precondition that the
  inputs are finite is not used.  The idealization changed no operation of the kernel, so there is nothing to preserve.
-/
import proofs.«103493_g31559419691535_cont_9to1_739_14_alg».proof.Defs
import proofs.«103493_g31559419691535_cont_9to1_739_14_alg».proof.Proof.Gen.Kernel
import proofs.«103493_g31559419691535_cont_9to1_739_14_alg».proof.Proof.Gen.Kernel.Frame
import proofs.«103493_g31559419691535_cont_9to1_739_14_alg».proof.Proof.Gen.KernelIdeal
import proofs.«103493_g31559419691535_cont_9to1_739_14_alg».proof.Proof.Gen.KernelIdeal.Frame
import proofs.«103493_g31559419691535_cont_9to1_739_14_alg».proof.Proof.Gen.ReferenceIdeal
import proofs.«103493_g31559419691535_cont_9to1_739_14_alg».proof.Proof.Gen.ReferenceIdeal.Run
import proofs.«103493_g31559419691535_cont_9to1_739_14_alg».proof.Proof.Gen.ReferenceIdeal.Read
import proofs.«103493_g31559419691535_cont_9to1_739_14_alg».proof.Proof.Gen.Pre_finite_inputs
import proofs.«103493_g31559419691535_cont_9to1_739_14_alg».proof.Proof.KernelRun
import proofs.«103493_g31559419691535_cont_9to1_739_14_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at `logits` of the arguments, and the arguments agree. -/
theorem algebraic : Cert.algebraic_KernelIdeal_ReferenceIdeal := by
  intro m ρ m' ρ' _ hagree
  refine ⟨fun c => Cert.RouterSpec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
